-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 34
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S1x128, .f32⟩
  | .hbm, ⟨33, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S10000x1_S10000x128 : S10000x1.Broadcasts S10000x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.GcnSpec.lean ====
/-
  One graph-convolution layer, entry by entry, on the extended reals.

  A node `r` has a feature row `feat r`, the sum `agg r` of its in-neighbours' feature rows, and the weight
  `norm r` (the reciprocal of its in-degree, the degree clamped below at one). With two 128 × 128 weight matrices
  and a bias row, output entry `(r, c)` is

      max ( (Σ_k feat r k · wv k c)  +  norm r · (Σ_k agg r k · wu k c)  +  bias c ,  0 ).

  Both programs compute exactly this expression, in this order of operations; they differ only in how the rows are
  cut into blocks and in how the column `norm` and the row `bias` are laid out before they are spread over the
  matrix. So no law of the extended reals beyond the reading of a matrix product as a sum is used, and the finiteness of
  the inputs is never needed. The zero the maximum is taken against is kept as the word both programs print.
-/
import Idealize.ShloMosaic.PureOps.Ideal
import Idealize.ShloMosaic.Lib.ValueIdx

noncomputable section

namespace GcnLayer

open Idealize.ShloMosaic Idealize.ShloMosaic.ValueIdx

/-- Entry `(r, c)` of the layer's output, from the aggregated rows, the feature rows, the degree weights, the two
    weight matrices and the bias. -/
def entry (agg feat : FVec Ideal ⟨2, ![100000, 128]⟩ .f32) (norm : FVec Ideal ⟨1, ![100000]⟩ .f32)
    (wu wv : FVec Ideal ⟨2, ![128, 128]⟩ .f32) (bias : FVec Ideal ⟨1, ![128]⟩ .f32) (r : Fin 100000) (c : Fin 128) : EReal :=
  max ((∑ k : Fin 128, feat (ix2 r k) * wv (ix2 k c)) + norm (ix1 r) * (∑ k : Fin 128, agg (ix2 r k) * wu (ix2 k c))
      + bias (ix1 c)) (Ideal.ofBits .f32 0x00000000#32)

/-- The layer's whole output array. -/
def layer (agg feat : FVec Ideal ⟨2, ![100000, 128]⟩ .f32) (norm : FVec Ideal ⟨1, ![100000]⟩ .f32)
    (wu wv : FVec Ideal ⟨2, ![128, 128]⟩ .f32) (bias : FVec Ideal ⟨1, ![128]⟩ .f32) : FVec Ideal ⟨2, ![100000, 128]⟩ .f32 :=
  fun i => entry agg feat norm wu wv bias (i 0) (i 1)

theorem layer_apply (agg feat : FVec Ideal ⟨2, ![100000, 128]⟩ .f32) (norm : FVec Ideal ⟨1, ![100000]⟩ .f32)
    (wu wv : FVec Ideal ⟨2, ![128, 128]⟩ .f32) (bias : FVec Ideal ⟨1, ![128]⟩ .f32) (r : Fin 100000) (c : Fin 128) :
    layer agg feat norm wu wv bias (ix2 r c) = entry agg feat norm wu wv bias r c := rfl

end GcnLayer

end
-- ==== Proof.GcnHost.lean ====
/-
  What the kernel's program has computed before its grid starts.

  Three of the arrays the grid reads are written by earlier operations of the program: the aggregated rows (each edge's
  source row gathered, a negative source index first wrapped round by the node count, and added into the row of the
  edge's destination, starting from zeros), the degree weights (one over the larger of one and the number of edges that
  arrive at the node, itself a sum of ones scattered by destination) recast from a vector to a one-column matrix, and the
  bias recast from a vector to a one-row matrix. Each is named here as one function of the program's arguments and never
  opened: the reference computes the first two by the same operations.
-/
import proofs.«137912_j58308476010684_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- The aggregated rows: for every edge, the source node's feature row added into the destination node's row. -/
def aggregated (feat : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 feat
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The degree weights: one over the larger of one and the node's in-degree. -/
def degreeWeight (dst : IVec S1600000 32) : FVec F S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

variable (m : (ℓ : Loc nD τ sig) → Buf (Elt F) ℓ)

/-- When the grid starts, the first window's array holds the aggregated rows of the arguments. -/
theorem entry_aggregated (c : Dev nD) :
    (V m c main_v9 : S100000x128.Idx → Elt F .f32)
      = aggregated (m ((c : Thread nD τ).loc main_arg0)) (m ((c : Thread nD τ).loc main_arg4)) (m ((c : Thread nD τ).loc main_arg5)) := by
  dsimp only [V, hostOps0]
  after_results
  rfl

/-- The third window's array holds the degree weights as a one-column matrix. -/
theorem entry_weight (c : Dev nD) :
    (V m c main_v18 : S100000x1.Idx → Elt F .f32)
      = shapeCast S100000x1 (degreeWeight (F := F) (m ((c : Thread nD τ).loc main_arg5))) shapeCasts_S100000_S100000x1 := by
  dsimp only [V, hostOps0]
  after_results
  rfl

/-- The sixth window's array holds the bias as a one-row matrix. -/
theorem entry_bias (c : Dev nD) :
    (V m c main_v19 : S1x128.Idx → Elt F .f32)
      = shapeCast S1x128 (m ((c : Thread nD τ).loc main_arg3) : S128.Idx → Elt F .f32) shapeCasts_S128_S1x128 := by
  dsimp only [V, hostOps0]
  after_results
  rfl

end Cert.KernelIdeal.HostSide

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.GcnBody.lean ====
/-
  What the kernel body stores, read at one entry of its block.

  At a grid point the body holds a block of 10000 aggregated rows `a`, the same 10000 feature rows `x`, the 10000
  degree weights `n` as a one-column matrix, the two weight matrices and the bias as a one-row matrix. It stores, at
  `(p, q)`,   max ( (Σ_k x p k · wv k q) + n p · (Σ_k a p k · wu k q) + b q , 0 ):
  each matrix product into a zero accumulator is its plain sum over the contracted axis, the column of weights is spread
  across the 128 columns and the bias row down the 10000 rows, and the casts to the same shape are the identity.
-/
import proofs.«137912_j58308476010684_1_alg».proof.Proof.Gen.KernelIdeal.Skeleton
import proofs.«137912_j58308476010684_1_alg».proof.Proof.LibColumnLayout
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.ColumnLayout

/-- In the block's matrix product the left operand is read in the output's row, -/
theorem lhs_row (i : S10000x128.Idx) (κ : dot_S10000x128_S128x128_S10000x128_1_0_0_1_n_n.contr.Idx) : (dot_S10000x128_S128x128_S10000x128_1_0_0_1_n_n.lhsIdx i κ 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- at the contracted position; -/
theorem lhs_contr (i : S10000x128.Idx) (κ : dot_S10000x128_S128x128_S10000x128_1_0_0_1_n_n.contr.Idx) : (dot_S10000x128_S128x128_S10000x128_1_0_0_1_n_n.lhsIdx i κ 1).val = (κ ⟨0, by decide⟩).val :=
  dot_S10000x128_S128x128_S10000x128_1_0_0_1_n_n.lhsIdx_val_of_single rfl i κ
/-- the right operand at the contracted position, -/
theorem rhs_contr (i : S10000x128.Idx) (κ : dot_S10000x128_S128x128_S10000x128_1_0_0_1_n_n.contr.Idx) : (dot_S10000x128_S128x128_S10000x128_1_0_0_1_n_n.rhsIdx i κ 0).val = (κ ⟨0, by decide⟩).val :=
  dot_S10000x128_S128x128_S10000x128_1_0_0_1_n_n.rhsIdx_val_of_single rfl i κ
/-- in the output's column. -/
theorem rhs_col (i : S10000x128.Idx) (κ : dot_S10000x128_S128x128_S10000x128_1_0_0_1_n_n.contr.Idx) : (dot_S10000x128_S128x128_S10000x128_1_0_0_1_n_n.rhsIdx i κ 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A block of 10000 rows times a 128 × 128 matrix, into a zero accumulator, at `(p, q)`: the sum over the
    contracted axis of the row's entries times the column's. -/
theorem matmul_rows (l : FVec Ideal S10000x128 .f32) (r : FVec Ideal S128x128 .f32) (p : Fin 10000) (q : Fin 128) :
    matmul dot_S10000x128_S128x128_S10000x128_1_0_0_1_n_n (some .fp32) l r (constant (F := Ideal) S10000x128 .f32 0x00000000#32) (ix2 p q)
      = ∑ k : Fin 128, l (ix2 p k) * r (ix2 k q) := by
  refine (Ideal.matmul_constant_zero_apply dot_S10000x128_S128x128_S10000x128_1_0_0_1_n_n (some .fp32) l r (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-- The stored value at `(p, q)` of the block, from the six loaded blocks. -/
theorem stored_apply (a x : Vec Ideal S10000x128 .f32) (n : Vec Ideal S10000x1 .f32) (wu wv : Vec Ideal S128x128 .f32)
    (b : Vec Ideal S1x128 .f32) (p : Fin 10000) (q : Fin 128) :
    k0_pay1 (F := Ideal) a x n wu wv b (ix2 p q)
      = max ((∑ k : Fin 128, x (ix2 p k) * wv (ix2 k q)) + n (ix2 p (0 : Fin 1)) * (∑ k : Fin 128, a (ix2 p k) * wu (ix2 k q))
          + b (ix2 (0 : Fin 1) q)) (Ideal.ofBits .f32 0x00000000#32) := by
  unfold k0_pay1
  simp only [shapeCast_self]
  show max ((matmul dot_S10000x128_S128x128_S10000x128_1_0_0_1_n_n (some .fp32) x wv (constant (F := Ideal) S10000x128 .f32 0x00000000#32) (ix2 p q))
      + (broadcastTo S10000x128 n broadcasts_S10000x1_S10000x128 (ix2 p q))
        * (matmul dot_S10000x128_S128x128_S10000x128_1_0_0_1_n_n (some .fp32) a wu (constant (F := Ideal) S10000x128 .f32 0x00000000#32) (ix2 p q))
      + broadcastTo S10000x128 b broadcasts_S1x128_S10000x128 (ix2 p q)) (Ideal.ofBits .f32 0x00000000#32) = _
  rw [matmul_rows x wv p q, matmul_rows a wu p q, broadcastTo_a1_ab_apply n broadcasts_S10000x1_S10000x128 p q,
    broadcastTo_1b_ab_apply b broadcasts_S1x128_S10000x128 p q]

end Cert.KernelIdeal.Body

end
-- ==== Proof.GcnBlocks.lean ====
/-
  From the ten blocks to the whole array.

  The grid has ten points; point `t` reads rows `10000 t … 10000 t + 9999` of the aggregated rows, of the feature rows
  and of the degree-weight column, the two weight matrices and the bias row whole, and writes back the same rows of the
  output. Row `p` of its block is row `10000 t + p` of the arrays, so what it stores at `(p, q)` is the layer's
  entry `(10000 t + p, q)`; the ten blocks tile the 100000 rows (row `r` lies in block `r / 10000`), so the output
  array ends holding the layer of the arrays the grid found.
-/
import proofs.«137912_j58308476010684_1_alg».proof.Proof.Gen.KernelIdeal.Value
import proofs.«137912_j58308476010684_1_alg».proof.Proof.GcnSpec
import proofs.«137912_j58308476010684_1_alg».proof.Proof.GcnBody
import proofs.«137912_j58308476010684_1_alg».proof.Proof.GcnHost
import proofs.«137912_j58308476010684_1_alg».proof.Proof.LibColumnLayout
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.ColumnLayout
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the ten points: the row-blocked windows (aggregated rows, feature rows, weights, output)
    sit at block row `t`, block column `0`; the two weight matrices and the bias at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `10000 t + p` of the array. -/
def row (t : Fin cfg0.N) (p : Fin 10000) : Fin 100000 :=
  ⟨t.val * 10000 + p.val, by have ht := t.isLt; have hN : cfg0.N = 10 := N_0; have hp := p.isLt; omega⟩

/-- The array the output window ends holding: the layer of the aggregated rows, the feature rows, the degree weights,
    the weight matrices and the bias, all as functions of the program's arguments. -/
abbrev result (c : Dev nD) : Buf (Elt Ideal) ((c : Thread nD τ).loc main_v20) :=
  GcnLayer.layer (HostSide.aggregated (F := Ideal) (m ((c : Thread nD τ).loc main_arg0)) (m ((c : Thread nD τ).loc main_arg4)) (m ((c : Thread nD τ).loc main_arg5)))
    (m ((c : Thread nD τ).loc main_arg0)) (HostSide.degreeWeight (F := Ideal) (m ((c : Thread nD τ).loc main_arg5))) (m ((c : Thread nD τ).loc main_arg1)) (m ((c : Thread nD τ).loc main_arg2)) (m ((c : Thread nD τ).loc main_arg3))

/-! ## Each window's array when the grid starts, in the window's own spelling -/

theorem entry0 (c : Dev nD) :
    (V m c (Pipeline.arrRef spec0 0) : S100000x128.Idx → EReal) = HostSide.aggregated (F := Ideal) (m ((c : Thread nD τ).loc main_arg0)) (m ((c : Thread nD τ).loc main_arg4)) (m ((c : Thread nD τ).loc main_arg5)) :=
  HostSide.entry_aggregated m c

theorem entry1 (c : Dev nD) : (V m c (Pipeline.arrRef spec0 1) : S100000x128.Idx → EReal) = (m ((c : Thread nD τ).loc main_arg0)) :=
  V_main_arg0 m c

theorem entry2 (c : Dev nD) :
    (V m c (Pipeline.arrRef spec0 2) : S100000x1.Idx → EReal)
      = shapeCast S100000x1 (HostSide.degreeWeight (F := Ideal) (m ((c : Thread nD τ).loc main_arg5))) shapeCasts_S100000_S100000x1 :=
  HostSide.entry_weight m c

theorem entry3 (c : Dev nD) : (V m c (Pipeline.arrRef spec0 3) : S128x128.Idx → EReal) = (m ((c : Thread nD τ).loc main_arg1)) :=
  V_main_arg1 m c

theorem entry4 (c : Dev nD) : (V m c (Pipeline.arrRef spec0 4) : S128x128.Idx → EReal) = (m ((c : Thread nD τ).loc main_arg2)) :=
  V_main_arg2 m c

theorem entry5 (c : Dev nD) :
    (V m c (Pipeline.arrRef spec0 5) : S1x128.Idx → EReal)
      = shapeCast S1x128 ((m ((c : Thread nD τ).loc main_arg3)) : S128.Idx → EReal) shapeCasts_S128_S1x128 :=
  HostSide.entry_bias m c

/-! ## Any array read through a window's block at point `t`

A block's element sits at block index × block size + its coordinate inside the block. The arrays are variables here, so
that nothing a program computed before the grid is ever opened. -/

/-- The aggregated rows' window: row `p` of the block is row `10000 t + p`. -/
theorem read_rows0 (c : Dev nD) (X : Buf (Elt Ideal) ((c : Thread nD τ).loc (Pipeline.arrRef spec0 0))) (t : Fin cfg0.N)
    (p : Fin 10000) (k : Fin 128) :
    ((cfg0.win 0).blk t).view.read (Elt Ideal) X (ix2 p k) = X (ix2 (row t p) k) := by
  have e := block_index t
  show X (((cfg0.win 0).blk t).view.emb (ix2 p k)) = X (ix2 (row t p) k)
  refine congrArg X (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The feature rows' window, the same rows. -/
theorem read_rows1 (c : Dev nD) (X : Buf (Elt Ideal) ((c : Thread nD τ).loc (Pipeline.arrRef spec0 1))) (t : Fin cfg0.N)
    (p : Fin 10000) (k : Fin 128) :
    ((cfg0.win 1).blk t).view.read (Elt Ideal) X (ix2 p k) = X (ix2 (row t p) k) := by
  have e := block_index t
  show X (((cfg0.win 1).blk t).view.emb (ix2 p k)) = X (ix2 (row t p) k)
  refine congrArg X (funext fun a => Fin.ext ?_)
  match a with
  | ⟨0, _⟩ => show win0_1.index t (0 : Fin 2) * 10000 + 1 * p.val = t.val * 10000 + p.val; omega
  | ⟨1, _⟩ => show win0_1.index t (1 : Fin 2) * 128 + 1 * k.val = k.val; omega

/-- The degree weights' one-column window, the same rows. -/
theorem read_rows2 (c : Dev nD) (X : Buf (Elt Ideal) ((c : Thread nD τ).loc (Pipeline.arrRef spec0 2))) (t : Fin cfg0.N)
    (p : Fin 10000) :
    ((cfg0.win 2).blk t).view.read (Elt Ideal) X (ix2 p (0 : Fin 1)) = X (ix2 (row t p) (0 : Fin 1)) := by
  have e := block_index t
  show X (((cfg0.win 2).blk t).view.emb (ix2 p (0 : Fin 1))) = X (ix2 (row t p) (0 : Fin 1))
  refine congrArg X (funext fun a => Fin.ext ?_)
  match a with
  | ⟨0, _⟩ => show win0_2.index t (0 : Fin 2) * 10000 + 1 * p.val = t.val * 10000 + p.val; omega
  | ⟨1, _⟩ => show win0_2.index t (1 : Fin 2) * 1 + 1 * 0 = 0; omega

/-- The first weight matrix's window is the whole matrix at every point. -/
theorem read_whole3 (c : Dev nD) (X : Buf (Elt Ideal) ((c : Thread nD τ).loc (Pipeline.arrRef spec0 3))) (t : Fin cfg0.N)
    (k q : Fin 128) :
    ((cfg0.win 3).blk t).view.read (Elt Ideal) X (ix2 k q) = X (ix2 k q) := by
  have e := block_index t
  show X (((cfg0.win 3).blk t).view.emb (ix2 k q)) = X (ix2 k q)
  refine congrArg X (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- So is the second's. -/
theorem read_whole4 (c : Dev nD) (X : Buf (Elt Ideal) ((c : Thread nD τ).loc (Pipeline.arrRef spec0 4))) (t : Fin cfg0.N)
    (k q : Fin 128) :
    ((cfg0.win 4).blk t).view.read (Elt Ideal) X (ix2 k q) = X (ix2 k q) := by
  have e := block_index t
  show X (((cfg0.win 4).blk t).view.emb (ix2 k q)) = X (ix2 k q)
  refine congrArg X (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- And the bias row's. -/
theorem read_whole5 (c : Dev nD) (X : Buf (Elt Ideal) ((c : Thread nD τ).loc (Pipeline.arrRef spec0 5))) (t : Fin cfg0.N)
    (q : Fin 128) :
    ((cfg0.win 5).blk t).view.read (Elt Ideal) X (ix2 (0 : Fin 1) q) = X (ix2 (0 : Fin 1) q) := by
  have e := block_index t
  show X (((cfg0.win 5).blk t).view.emb (ix2 (0 : Fin 1) q)) = X (ix2 (0 : Fin 1) q)
  refine congrArg X (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-! ## Each window's block at point `t` as entries of the arguments' arrays -/

theorem rows_aggregated (c : Dev nD) (t : Fin cfg0.N) (p : Fin 10000) (k : Fin 128) :
    iblk m c 0 t (ix2 p k) = HostSide.aggregated (F := Ideal) (m ((c : Thread nD τ).loc main_arg0)) (m ((c : Thread nD τ).loc main_arg4)) (m ((c : Thread nD τ).loc main_arg5)) (ix2 (row t p) k) := by
  unfold iblk
  exact (read_rows0 c (V m c (Pipeline.arrRef spec0 0)) t p k).trans (congrFun (entry0 m c) (ix2 (row t p) k))

theorem rows_features (c : Dev nD) (t : Fin cfg0.N) (p : Fin 10000) (k : Fin 128) :
    iblk m c 1 t (ix2 p k) = ((m ((c : Thread nD τ).loc main_arg0)) : S100000x128.Idx → EReal) (ix2 (row t p) k) := by
  unfold iblk
  exact (read_rows1 c (V m c (Pipeline.arrRef spec0 1)) t p k).trans (congrFun (entry1 m c) (ix2 (row t p) k))

theorem rows_weight (c : Dev nD) (t : Fin cfg0.N) (p : Fin 10000) :
    iblk m c 2 t (ix2 p (0 : Fin 1)) = HostSide.degreeWeight (F := Ideal) (m ((c : Thread nD τ).loc main_arg5)) (ix1 (row t p)) := by
  unfold iblk
  exact ((read_rows2 c (V m c (Pipeline.arrRef spec0 2)) t p).trans (congrFun (entry2 m c) (ix2 (row t p) (0 : Fin 1)))).trans
    (shapeCast_a_a1_apply (HostSide.degreeWeight (F := Ideal) (m ((c : Thread nD τ).loc main_arg5))) shapeCasts_S100000_S100000x1 (row t p) (0 : Fin 1))

theorem whole_wu (c : Dev nD) (t : Fin cfg0.N) (k q : Fin 128) :
    iblk m c 3 t (ix2 k q) = ((m ((c : Thread nD τ).loc main_arg1)) : S128x128.Idx → EReal) (ix2 k q) := by
  unfold iblk
  exact (read_whole3 c (V m c (Pipeline.arrRef spec0 3)) t k q).trans (congrFun (entry3 m c) (ix2 k q))

theorem whole_wv (c : Dev nD) (t : Fin cfg0.N) (k q : Fin 128) :
    iblk m c 4 t (ix2 k q) = ((m ((c : Thread nD τ).loc main_arg2)) : S128x128.Idx → EReal) (ix2 k q) := by
  unfold iblk
  exact (read_whole4 c (V m c (Pipeline.arrRef spec0 4)) t k q).trans (congrFun (entry4 m c) (ix2 k q))

theorem row_bias (c : Dev nD) (t : Fin cfg0.N) (q : Fin 128) :
    iblk m c 5 t (ix2 (0 : Fin 1) q) = ((m ((c : Thread nD τ).loc main_arg3)) : S128.Idx → EReal) (ix1 q) := by
  unfold iblk
  exact ((read_whole5 c (V m c (Pipeline.arrRef spec0 5)) t q).trans (congrFun (entry5 m c) (ix2 (0 : Fin 1) q))).trans
    (shapeCast_a_1a_apply ((m ((c : Thread nD τ).loc main_arg3)) : S128.Idx → EReal) shapeCasts_S128_S1x128 (0 : Fin 1) q)

/-- Entry `(p, q)` of the output's block at point `t` is entry `(10000 t + p, q)` of the output array. -/
theorem out_index (t : Fin cfg0.N) (p : Fin 10000) (q : Fin 128) :
    ((cfg0.win 6).blk t).view.emb (ix2 p q) = ix2 (row t p) q := by
  obtain ⟨-, -, -, -, -, -, -, -, -, -, -, -, e0, e1⟩ := block_index t
  refine funext fun a => Fin.ext ?_
  match a with
  | ⟨0, _⟩ => show win0_6.index t (0 : Fin 2) * 10000 + 1 * p.val = t.val * 10000 + p.val; omega
  | ⟨1, _⟩ => show win0_6.index t (1 : Fin 2) * 128 + 1 * q.val = q.val; omega

/-! ## What a point writes back, the cover, and the array after the run -/

/-- What point `t` writes back is block `t` of the layer. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero origin]
  simp only [View.ld_unit_zero (S := S10000x128) origin, View.ld_unit_zero (S := S10000x1) origin,
    View.ld_unit_zero (S := S128x128) origin, View.ld_unit_zero (S := S1x128) origin]
  funext j
  obtain ⟨p, q, rfl⟩ : ∃ (p : Fin 10000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  rw [out_index t p q]
  refine (Body.stored_apply (iblk m c 0 t) (iblk m c 1 t) (iblk m c 2 t) (iblk m c 3 t) (iblk m c 4 t) (iblk m c 5 t) p q).trans ?_
  show _ = GcnLayer.entry _ _ _ _ _ _ (row t p) q
  unfold GcnLayer.entry
  simp only [rows_features m c t p, whole_wv m c t, rows_aggregated m c t p, whole_wu m c t, rows_weight m c t p,
    row_bias m c t q]

/-- An index of the output array is in point `t`'s block iff each coordinate is in the block's range on its axis. -/
theorem mem_block (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v20).slice (win0_6.rect t)).set ↔ _
  rw [View.set_slice_whole, Rect.mem_set_unit]
  exact Iff.rfl

/-- Every row lies in the block of the point `row / 10000`. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨-, -, -, -, -, -, -, -, -, -, -, -, e0, e1⟩ := block_index ⟨(i 0).val / 10000, ht⟩
  have e0' : win0_6.index ⟨(i 0).val / 10000, ht⟩ (0 : Fin 2) = (i 0).val / 10000 := e0
  refine ⟨⟨(i 0).val / 10000, ht⟩, flush0_6 _, ?_⟩
  rw [mem_block]
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    omega
  | ⟨1, _⟩ =>
    show win0_6.index ⟨(i 0).val / 10000, ht⟩ (1 : Fin 2) * 128 ≤ (i 1).val
      ∧ (i 1).val < win0_6.index ⟨(i 0).val / 10000, ht⟩ (1 : Fin 2) * 128 + 128
    omega

/-- The output array after the run is the layer. -/
theorem final (c : Dev nD) : (dats m 0 c).arrAt 6 cfg0.N = result m c :=
  (dats m 0 c).arrAt_eq_of_cover 6 (result m c) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.GcnRef.lean ====
/-
  The reference computes the layer.

  Its last value is a maximum against zero of a sum of three arrays: the product of the feature rows with the second
  weight matrix; the degree weights, laid out as a column and spread across the columns, times the product of the
  aggregated rows with the first weight matrix; and the bias, laid out as a row and spread down the rows. Read at
  `(r, c)`, each matrix product is its sum over the contracted axis, the spread column reads the weight of row `r` and
  the spread row the bias of column `c`: the layer's entry, with the aggregated rows and the degree weights the
  reference's own earlier values (a scatter-add of gathered rows; one over a clamped scatter-add of ones), which are
  never opened.
-/
import proofs.«137912_j58308476010684_1_alg».proof.Proof.Gen.ReferenceIdeal.Read
import proofs.«137912_j58308476010684_1_alg».proof.Proof.GcnSpec

noncomputable section

namespace Cert.ReferenceIdeal.Layer

open Cert.ReferenceIdeal Cert.ReferenceIdeal.Read Idealize.ShloMosaic Idealize.ShloMosaic.ValueIdx

theorem left_rows (r : Fin 100000) (c k : Fin 128) : lidx_main_v11 (ix2 r c) k = ix2 r k :=
  funext fun a => Fin.ext (by match a with | ⟨0, _⟩ => rfl | ⟨1, _⟩ => rfl)
theorem right_cols (r : Fin 100000) (c k : Fin 128) : ridx_main_v11 (ix2 r c) k = ix2 k c :=
  funext fun a => Fin.ext (by match a with | ⟨0, _⟩ => rfl | ⟨1, _⟩ => rfl)
theorem left_rows' (r : Fin 100000) (c k : Fin 128) : lidx_main_v10 (ix2 r c) k = ix2 r k :=
  funext fun a => Fin.ext (by match a with | ⟨0, _⟩ => rfl | ⟨1, _⟩ => rfl)
theorem right_cols' (r : Fin 100000) (c k : Fin 128) : ridx_main_v10 (ix2 r c) k = ix2 k c :=
  funext fun a => Fin.ext (by match a with | ⟨0, _⟩ => rfl | ⟨1, _⟩ => rfl)
theorem weight_row (r : Fin 100000) (c : Fin 128) : idx_main_v20 (idx_main_v21 (ix2 r c)) = ix1 r :=
  funext fun a => Fin.ext (by match a with | ⟨0, _⟩ => rfl)
theorem bias_col (r : Fin 100000) (c : Fin 128) : idx_main_v24 (idx_main_v25 (ix2 r c)) = ix1 c :=
  funext fun a => Fin.ext (by match a with | ⟨0, _⟩ => rfl)

/-- The reference's result is the layer of its own aggregated rows and degree weights. -/
theorem result_eq (x0 : FVec Ideal S100000x128 .f32) (x1 x2 : FVec Ideal S128x128 .f32) (x3 : FVec Ideal S128 .f32)
    (x4 x5 : IVec S1600000 32) :
    val_main_v27 (F := Ideal) x0 x1 x2 x3 x4 x5
      = GcnLayer.layer (val_main_v9 (F := Ideal) x0 x4 x5) x0 (val_main_v19 (F := Ideal) x5) x1 x2 x3 := by
  funext i
  obtain ⟨r, c, rfl⟩ : ∃ (r : Fin 100000) (c : Fin 128), i = ix2 r c := ⟨i 0, i 1, eq_ix2 i⟩
  rw [GcnLayer.layer_apply]
  unfold GcnLayer.entry
  rw [val_main_v27_apply, val_main_v26_apply, val_main_v23_apply, val_main_v11_apply, val_main_v22_apply,
    val_main_v21_apply, val_main_v20_apply, val_main_v10_apply, val_main_v25_apply, val_main_v24_apply,
    val_main_call0_v0_apply, val_main_call0_cst_apply]
  simp only [left_rows, right_cols, left_rows', right_cols', weight_row, bias_col, Ideal.maximumf_def, Ideal.addf_def,
    Ideal.mulf_def, Ideal.ofBits_def]

end Cert.ReferenceIdeal.Layer

end
-- ==== Proof.lean ====
/-
  A graph-convolution layer: a kernel that does the two matrix products, the degree weighting, the bias and the final
  maximum against zero block by block over 100000 rows, against the same expression written once over the whole arrays.

  Both programs first aggregate, by the same operations, every edge's source row into its destination's row and count the
  edges arriving at each node; the aggregated rows and the degree weights are therefore one function of the arguments on
  both sides, and are carried as such, never opened. What remains is that the kernel's ten blocks of 10000 rows tile the
  array and that, at each entry, a matrix product into a zero accumulator is the same sum as the whole-array product, the
  column of degree weights and the row of biases being read at the entry's row and column whichever way they were laid
  out. No finiteness of the inputs is used: the two sides are the same expression of the extended reals, in the same order.

  The three frames are the programs' runs with the results dropped; the idealization rewrote nothing, so it is preserved
  trivially; the equivalence sets the kernel's run (its result array named as the layer of the arguments) beside the
  reference's run (its result term read at an entry as the same layer).
-/
import proofs.«137912_j58308476010684_1_alg».proof.Defs
import proofs.«137912_j58308476010684_1_alg».proof.Proof.Gen.Kernel
import proofs.«137912_j58308476010684_1_alg».proof.Proof.Gen.Kernel.Skeleton
import proofs.«137912_j58308476010684_1_alg».proof.Proof.Gen.Kernel.Launch
import proofs.«137912_j58308476010684_1_alg».proof.Proof.Gen.Kernel.Points
import proofs.«137912_j58308476010684_1_alg».proof.Proof.Gen.Kernel.Frame
import proofs.«137912_j58308476010684_1_alg».proof.Proof.Gen.KernelIdeal
import proofs.«137912_j58308476010684_1_alg».proof.Proof.Gen.KernelIdeal.Skeleton
import proofs.«137912_j58308476010684_1_alg».proof.Proof.Gen.KernelIdeal.Launch
import proofs.«137912_j58308476010684_1_alg».proof.Proof.Gen.KernelIdeal.Points
import proofs.«137912_j58308476010684_1_alg».proof.Proof.Gen.KernelIdeal.Frame
import proofs.«137912_j58308476010684_1_alg».proof.Proof.Gen.ReferenceIdeal
import proofs.«137912_j58308476010684_1_alg».proof.Proof.Gen.Pre_finite_inputs
import proofs.«137912_j58308476010684_1_alg».proof.Proof.Gen.KernelIdeal.Value
import proofs.«137912_j58308476010684_1_alg».proof.Proof.Gen.ReferenceIdeal.Run
import proofs.«137912_j58308476010684_1_alg».proof.Proof.Gen.ReferenceIdeal.Read
import proofs.«137912_j58308476010684_1_alg».proof.Proof.GcnSpec
import proofs.«137912_j58308476010684_1_alg».proof.Proof.GcnHost
import proofs.«137912_j58308476010684_1_alg».proof.Proof.GcnBlocks
import proofs.«137912_j58308476010684_1_alg».proof.Proof.GcnRef
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs aggregate the neighbours' rows by the same operations of the same arguments. -/
theorem aggregated_eq (feat : FVec Ideal Cert.KernelIdeal.S100000x128 .f32) (src dst : IVec Cert.KernelIdeal.S1600000 32) :
    Cert.KernelIdeal.HostSide.aggregated (F := Ideal) feat src dst = Cert.ReferenceIdeal.Read.val_main_v9 (F := Ideal) feat src dst := rfl

/-- And compute the degree weights by the same operations. -/
theorem weight_eq (dst : IVec Cert.KernelIdeal.S1600000 32) :
    Cert.KernelIdeal.HostSide.degreeWeight (F := Ideal) dst = Cert.ReferenceIdeal.Read.val_main_v19 (F := Ideal) dst := rfl

/-- From memories that agree on the arguments both programs end with the layer of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  refine (Cert.ReferenceIdeal.Read.val_main_v27_eq (F := Ideal) _ _ _ _ _ _).trans ?_
  refine (Cert.ReferenceIdeal.Layer.result_eq _ _ _ _ _ _).trans ?_
  show GcnLayer.layer _ _ _ _ _ _ = GcnLayer.layer _ _ _ _ _ _
  rw [aggregated_eq, weight_eq]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
